-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x10 : Shape := ⟨2, ![4000000, 10]⟩
abbrev S10x10 : Shape := ⟨2, ![10, 10]⟩
abbrev S20x10 : Shape := ⟨2, ![20, 10]⟩
abbrev S10 : Shape := ⟨1, ![10]⟩
abbrev S_ : Shape := ⟨0, ![]⟩

class Facts : Prop where
  bcast_S_S4000000x10 : S_.BroadcastsInDim S4000000x10 (![] : Fin 0 → Fin S4000000x10.rank)
  reducesTo_S4000000x10_S_d0_1 : S4000000x10.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_
  bcast_S_S20x10 : S_.BroadcastsInDim S20x10 (![] : Fin 0 → Fin S20x10.rank)
  reducesTo_S20x10_S_d0_1 : S20x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10 .f32) (main_v33 : IVec S_ 1) : IVec S_ 1 :=
  let main_v34 : FVec F S10 .f32 := Host.absf main_arg7
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg4 : FVec F S10x10 .f32) (main_arg5 : FVec F S10 .f32) (main_arg6 : FVec F S20x10 .f32) (main_arg7 : FVec F S10 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x10 .f32 := Host.absf main_arg4
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S20x10 .f32 := Host.absf main_arg6
  let main_cst_10 : FVec F S_ .f32 := constant S_ .f32 0x7F800000#32
  let main_v30 : FVec F S20x10 .f32 := broadcastInDim S20x10 ![] bcast_S_S20x10 main_cst_10
  let main_v31 : IVec S20x10 1 := cmpf .olt main_v29 main_v30
  let main_c_11 : IVec S_ 1 := constantI S_ 1 1#1
  let main_v32 : IVec S_ 1 := (fun x v => Host.reduce IntOp.andi x v reducesTo_S20x10_S_d0_1 h_S_) main_v31 main_c_11
  let main_v33 : IVec S_ 1 := andi main_v28 main_v32
  fn_part2 (F := F) main_arg7 main_v33

def fn {F : FTy → Type} [FloatOps F] (main_arg0 : FVec F S4000000x10 .f32) (main_arg1 : FVec F S10x10 .f32) (main_arg2 : FVec F S20x10 .f32) (main_arg3 : FVec F S10 .f32) (main_arg4 : FVec F S10x10 .f32) (main_arg5 : FVec F S10 .f32) (main_arg6 : FVec F S20x10 .f32) (main_arg7 : FVec F S10 .f32) : IVec S_ 1 :=
  let main_v0 : FVec F S4000000x10 .f32 := Host.absf main_arg0
  let main_cst : FVec F S_ .f32 := constant S_ .f32 0x7F800000#32
  let main_v1 : FVec F S4000000x10 .f32 := broadcastInDim S4000000x10 ![] bcast_S_S4000000x10 main_cst
  let main_v2 : IVec S4000000x10 1 := cmpf .olt main_v0 main_v1
  let main_c : IVec S_ 1 := constantI S_ 1 1#1
  let main_v3 : IVec S_ 1 := (fun x v => Host.reduce IntOp.andi x v reducesTo_S4000000x10_S_d0_1 h_S_) main_v2 main_c
  let main_v4 : FVec F S10x10 .f32 := Host.absf main_arg1
  let main_cst_0 : FVec F S_ .f32 := constant S_ .f32 0x7F800000#32
  let main_v5 : FVec F S10x10 .f32 := broadcastInDim S10x10 ![] bcast_S_S10x10 main_cst_0
  let main_v6 : IVec S10x10 1 := cmpf .olt main_v4 main_v5
  let main_c_1 : IVec S_ 1 := constantI S_ 1 1#1
  let main_v7 : IVec S_ 1 := (fun x v => Host.reduce IntOp.andi x v reducesTo_S10x10_S_d0_1 h_S_) main_v6 main_c_1
  let main_v8 : IVec S_ 1 := andi main_v3 main_v7
  let main_v9 : FVec F S20x10 .f32 := Host.absf main_arg2
  let main_cst_2 : FVec F S_ .f32 := constant S_ .f32 0x7F800000#32
  let main_v10 : FVec F S20x10 .f32 := broadcastInDim S20x10 ![] bcast_S_S20x10 main_cst_2
  let main_v11 : IVec S20x10 1 := cmpf .olt main_v9 main_v10
  let main_c_3 : IVec S_ 1 := constantI S_ 1 1#1
  let main_v12 : IVec S_ 1 := (fun x v => Host.reduce IntOp.andi x v reducesTo_S20x10_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_arg7 main_v13 main_v16
-- ==== Kernel.lean ====
abbrev S4000000x10 : Shape := ⟨2, ![4000000, 10]⟩
abbrev S10x10 : Shape := ⟨2, ![10, 10]⟩
abbrev S20x10 : Shape := ⟨2, ![20, 10]⟩
abbrev S10 : Shape := ⟨1, ![10]⟩
abbrev S1x10 : Shape := ⟨2, ![1, 10]⟩
abbrev S8000x10 : Shape := ⟨2, ![8000, 10]⟩

abbrev nBuf : Space → Nat
  | .hbm => 20
  | .vmem => 11
  | .smem => 0
  | _ => 0

abbrev bufTy : (tb : Table) → Fin (tcTables nBuf tb) → BufTy
  | .hbm, ⟨0, _⟩ => ⟨S4000000x10, .f32⟩
  | .hbm, ⟨1, _⟩ => ⟨S10x10, .f32⟩
  | .hbm, ⟨2, _⟩ => ⟨S20x10, .f32⟩
  | .hbm, ⟨3, _⟩ => ⟨S10, .f32⟩
  | .hbm, ⟨4, _⟩ => ⟨S10x10, .f32⟩
  | .hbm, ⟨5, _⟩ => ⟨S10, .f32⟩
  | .hbm, ⟨6, _⟩ => ⟨S20x10, .f32⟩
  | .hbm, ⟨7, _⟩ => ⟨S10, .f32⟩
  | .hbm, ⟨8, _⟩ => ⟨S10x10, .f32⟩
  | .hbm, ⟨9, _⟩ => ⟨S10x10, .f32⟩
  | .hbm, ⟨10, _⟩ => ⟨S10x10, .f32⟩
  | .hbm, ⟨11, _⟩ => ⟨S10x10, .f32⟩
  | .hbm, ⟨12, _⟩ => ⟨S10x10, .f32⟩
  | .hbm, ⟨13, _⟩ => ⟨S10x10, .f32⟩
  | .hbm, ⟨14, _⟩ => ⟨S10x10, .f32⟩
  | .hbm, ⟨15, _⟩ => ⟨S10x10, .f32⟩
  | .hbm, ⟨16, _⟩ => ⟨S1x10, .f32⟩
  | .hbm, ⟨17, _⟩ => ⟨S1x10, .f32⟩
  | .hbm, ⟨18, _⟩ => ⟨S1x10, .f32⟩
  | .hbm, ⟨19, _⟩ => ⟨S4000000x10, .f32⟩
  | .local _ .vmem, ⟨0, _⟩ => ⟨S8000x10, .f32⟩
  | .local _ .vmem, ⟨1, _⟩ => ⟨S8000x10, .f32⟩
  | .local _ .vmem, ⟨2, _⟩ => ⟨S10x10, .f32⟩
  | .local _ .vmem, ⟨3, _⟩ => ⟨S1x10, .f32⟩
  | .local _ .vmem, ⟨4, _⟩ => ⟨S10x10, .f32⟩
  | .local _ .vmem, ⟨5, _⟩ => ⟨S1x10, .f32⟩
  | .local _ .vmem, ⟨6, _⟩ => ⟨S10x10, .f32⟩
  | .local _ .vmem, ⟨7, _⟩ => ⟨S10x10, .f32⟩
  | .local _ .vmem, ⟨8, _⟩ => ⟨S1x10, .f32⟩
  | .local _ .vmem, ⟨9, _⟩ => ⟨S8000x10, .f32⟩
  | .local _ .vmem, ⟨10, _⟩ => ⟨S8000x10, .f32⟩
  | _, _ => ⟨S4000000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S10x10_S10x10_1_0 : S10x10.Transposes [1, 0] S10x10
  slices_S20x10_S10x10_0_0 : S20x10.Slices ![0, 0] S10x10
  slices_S20x10_S10x10_10_0 : S20x10.Slices ![10, 0] S10x10
  shapeCasts_S10_S1x10 : S10.ShapeCasts S1x10
  inb_S8000x10_S8000x10_0_0 : ∀ a, (![0, 0] : Fin 2 → Nat) a + S8000x10.size a ≤ S8000x10.size a
  h_S8000x10 : 0 < S8000x10.numel
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S8000x10 : S1x10.Broadcasts S8000x10
  dot_S10x10_S10x10_S10x10_1_0_0_1_n_n_wf : DotDims.WF S10x10 S10x10 S10x10 [1] [0] [0] [1] [] []
  dot_S8000x10_S10x10_S8000x10_1_0_0_1_n_n_wf : DotDims.WF S8000x10 S10x10 S8000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x10.size a ≤ S4000000x10.size a
  hwx0_0 : ∀ i : grid0.Coords, EltTy.bits .f32 = 32 ∨ (Rect.block (s := S4000000x10) S8000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x10.size a ≤ S10x10.size a
  hwx0_1 : ∀ i : grid0.Coords, EltTy.bits .f32 = 32 ∨ (Rect.block (s := S10x10) S10x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x10.size a ≤ S10x10.size a
  hwx0_3 : ∀ i : grid0.Coords, EltTy.bits .f32 = 32 ∨ (Rect.block (s := S10x10) S10x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x10.size a ≤ S10x10.size a
  hwx0_5 : ∀ i : grid0.Coords, EltTy.bits .f32 = 32 ∨ (Rect.block (s := S10x10) S10x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x10.size a ≤ S10x10.size a
  hwx0_6 : ∀ i : grid0.Coords, EltTy.bits .f32 = 32 ∨ (Rect.block (s := S10x10) S10x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x10.size a ≤ S1x10.size a
  hwx0_7 : ∀ i : grid0.Coords, EltTy.bits .f32 = 32 ∨ (Rect.block (s := S1x10) S1x10.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x10.size a ≤ S4000000x10.size a
  hwx0_8 : ∀ i : grid0.Coords, EltTy.bits .f32 = 32 ∨ (Rect.block (s := S4000000x10) S8000x10.size (cc0_transform_8 i) (hinb0_8 i)).WholeWords (EltTy.packing .f32)

variable [Facts₀]

def dot_S10x10_S10x10_S10x10_1_0_0_1_n_n : DotDims S10x10 S10x10 S10x10 where
  lhsContracting := [1]
  rhsContracting := [0]
  lhsNonContracting := [0]
  rhsNonContracting := [1]
  lhsBatch := []
  rhsBatch := []
  wf := dot_S10x10_S10x10_S10x10_1_0_0_1_n_n_wf
def dot_S8000x10_S10x10_S8000x10_1_0_0_1_n_n : DotDims S8000x10 S10x10 S8000x10 where
  lhsContracting := [1]
  rhsContracting := [0]
  lhsNonContracting := [0]
  rhsNonContracting := [1]
  lhsBatch := []
  rhsBatch := []
  wf := dot_S8000x10_S10x10_S8000x10_1_0_0_1_n_n_wf

abbrev win0_0 : Pipeline.Window sig grid0 :=
  Pipeline.Window.ofSpec (Memref.whole main_arg0) S8000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S10x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S10x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S8000x10.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4000000x10 : Shape := ⟨2, ![4000000, 10]⟩
abbrev S10x10 : Shape := ⟨2, ![10, 10]⟩
abbrev S20x10 : Shape := ⟨2, ![20, 10]⟩
abbrev S10 : Shape := ⟨1, ![10]⟩
abbrev S4000000x20 : Shape := ⟨2, ![4000000, 20]⟩
abbrev S1x10 : Shape := ⟨2, ![1, 10]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4000000x10, .f32⟩
  | .hbm, ⟨1, _⟩ => ⟨S10x10, .f32⟩
  | .hbm, ⟨2, _⟩ => ⟨S20x10, .f32⟩
  | .hbm, ⟨3, _⟩ => ⟨S10, .f32⟩
  | .hbm, ⟨4, _⟩ => ⟨S10x10, .f32⟩
  | .hbm, ⟨5, _⟩ => ⟨S10, .f32⟩
  | .hbm, ⟨6, _⟩ => ⟨S20x10, .f32⟩
  | .hbm, ⟨7, _⟩ => ⟨S10, .f32⟩
  | .hbm, ⟨8, _⟩ => ⟨S10x10, .f32⟩
  | .hbm, ⟨9, _⟩ => ⟨S4000000x10, .f32⟩
  | .hbm, ⟨10, _⟩ => ⟨S4000000x10, .f32⟩
  | .hbm, ⟨11, _⟩ => ⟨S4000000x20, .f32⟩
  | .hbm, ⟨12, _⟩ => ⟨S4000000x10, .f32⟩
  | .hbm, ⟨13, _⟩ => ⟨S1x10, .f32⟩
  | .hbm, ⟨14, _⟩ => ⟨S4000000x10, .f32⟩
  | .hbm, ⟨15, _⟩ => ⟨S4000000x10, .f32⟩
  | .hbm, ⟨16, _⟩ => ⟨S_, .f32⟩
  | .hbm, ⟨17, _⟩ => ⟨S4000000x10, .f32⟩
  | .hbm, ⟨18, _⟩ => ⟨S4000000x10, .f32⟩
  | .hbm, ⟨19, _⟩ => ⟨S4000000x10, .f32⟩
  | .hbm, ⟨20, _⟩ => ⟨S1x10, .f32⟩
  | .hbm, ⟨21, _⟩ => ⟨S4000000x10, .f32⟩
  | .hbm, ⟨22, _⟩ => ⟨S4000000x10, .f32⟩
  | .hbm, ⟨23, _⟩ => ⟨S_, .f32⟩
  | .hbm, ⟨24, _⟩ => ⟨S4000000x10, .f32⟩
  | .hbm, ⟨25, _⟩ => ⟨S4000000x10, .f32⟩
  | .hbm, ⟨26, _⟩ => ⟨S4000000x20, .f32⟩
  | .hbm, ⟨27, _⟩ => ⟨S4000000x10, .f32⟩
  | .hbm, ⟨28, _⟩ => ⟨S1x10, .f32⟩
  | .hbm, ⟨29, _⟩ => ⟨S4000000x10, .f32⟩
  | .hbm, ⟨30, _⟩ => ⟨S4000000x10, .f32⟩
  | .hbm, ⟨31, _⟩ => ⟨S_, .f32⟩
  | .hbm, ⟨32, _⟩ => ⟨S4000000x10, .f32⟩
  | .hbm, ⟨33, _⟩ => ⟨S4000000x10, .f32⟩
  | _, _ => ⟨S4000000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call1_cst : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call2_cst : Ref sig .tc := ⟨.hbm, 31, rfl⟩
abbrev main_call2_v0 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  transposes_S10x10_S10x10_1_0 : S10x10.Transposes [1, 0] S10x10
  concatenates_S4000000x10_S4000000x10_S4000000x20_d1 : Shape.Concatenates [S4000000x10, S4000000x10] S4000000x20 1
  bcast_S10_S1x10_1 : S10.BroadcastsInDim S1x10 (![1] : Fin 1 → Fin S1x10.rank)
  bcast_S1x10_S4000000x10_0_1 : S1x10.BroadcastsInDim S4000000x10 (![0, 1] : Fin 2 → Fin S4000000x10.rank)
  bcast_S_S4000000x10 : S_.BroadcastsInDim S4000000x10 (![] : Fin 0 → Fin S4000000x10.rank)
  dot_S4000000x10_S10x10_S4000000x10_1_0_0_1_n_n_wf : DotDims.WF S4000000x10 S10x10 S4000000x10 [1] [0] [0] [1] [] []
  dot_S4000000x20_S20x10_S4000000x10_1_0_0_1_n_n_wf : DotDims.WF S4000000x20 S20x10 S4000000x10 [1] [0] [0] [1] [] []

variable [Facts₀]

def dot_S4000000x10_S10x10_S4000000x10_1_0_0_1_n_n : DotDims S4000000x10 S10x10 S4000000x10 where
  lhsContracting := [1]
  rhsContracting := [0]
  lhsNonContracting := [0]
  rhsNonContracting := [1]
  lhsBatch := []
  rhsBatch := []
  wf := dot_S4000000x10_S10x10_S4000000x10_1_0_0_1_n_n_wf
def dot_S4000000x20_S20x10_S4000000x10_1_0_0_1_n_n : DotDims S4000000x20 S20x10 S4000000x10 where
  lhsContracting := [1]
  rhsContracting := [0]
  lhsNonContracting := [0]
  rhsNonContracting := [1]
  lhsBatch := []
  rhsBatch := []
  wf := dot_S4000000x20_S20x10_S4000000x10_1_0_0_1_n_n_wf

class Facts : Prop extends Facts₀ where

variable [Facts]
-- ==== Proof.Encoder.lean ====
/-
  The encoder one row at a time, on the extended reals.

  Every output row depends on one input row `x` (ten numbers) and on the weights. A dense layer followed by the
  rectifier is `c ↦ max (∑ₖ xₖ · W k c + b c) z` (`z` the rectifier's floor, the constant zero, carried as a parameter and
  never evaluated); a layer fed by two rows side by side, against a weight matrix cut in an upper and a lower half, is
  `c ↦ max ((∑ₖ xₖ · Wx k c + ∑ₖ yₖ · Wy k c) + b c) z`.

  Two arrangements of the first layer are compared. One first sends the row through the adjacency matrix both ways,
  `sendq = ∑ₖ xₖ · A q k` and `recvq = ∑ₖ xₖ · A k q`, and then through the two halves `T`, `B` of the first weight matrix.
  The other first folds the adjacency into the weights, `E k c = ∑ⱼ A j k · T j c + ∑ⱼ A k j · B j c`, and multiplies the row
  by `E`. They agree because matrix multiplication is associative and distributes over addition:
    ∑q (∑ₖ xₖ A q k) T q c + ∑q (∑ₖ xₖ A k q) B q c = ∑ₖ xₖ (∑ⱼ A j k T j c + ∑ⱼ A k j B j c).
  On the extended reals these laws fail at the infinities, so the identity is proved for rows, adjacency and weights
  whose entries are all real, by pushing the inclusion of ℝ outwards and computing in ℝ.
-/
import Idealize.ShloMosaic.PureOps.Ideal
import Mathlib.Tactic.Ring

noncomputable section

open scoped BigOperators

namespace Cert.Proof.Encoder

/-- A dense layer and the rectifier: `max (∑ₖ xₖ · W k c + b c) z`. -/
def dense {K N : ℕ} (x : Fin K → EReal) (W : Fin K → Fin N → EReal) (b : Fin N → EReal) (z : EReal) (c : Fin N) : EReal :=
  max (∑ k, x k * W k c + b c) z

/-- A dense layer over two rows side by side, the weight matrix given as its upper and lower halves, and the rectifier. -/
def dense2 {K L N : ℕ} (x : Fin K → EReal) (y : Fin L → EReal) (Wx : Fin K → Fin N → EReal) (Wy : Fin L → Fin N → EReal)
    (b : Fin N → EReal) (z : EReal) (c : Fin N) : EReal :=
  max ((∑ k, x k * Wx k c + ∑ k, y k * Wy k c) + b c) z

/-- The adjacency folded into the first layer's weights: `∑ⱼ A j k · T j c + ∑ⱼ A k j · B j c`. -/
def folded {n N : ℕ} (A : Fin n → Fin n → EReal) (T B : Fin n → Fin N → EReal) (k : Fin n) (c : Fin N) : EReal :=
  ∑ j, A j k * T j c + ∑ j, A k j * B j c

/-- The encoder with the adjacency folded into the first layer: the row times the folded weights, then the second
    layer, then the third layer over the row and the second layer's output side by side. -/
def encoder {n N : ℕ} (x : Fin n → EReal) (A : Fin n → Fin n → EReal) (T B : Fin n → Fin N → EReal) (b1 : Fin N → EReal)
    (W2 : Fin N → Fin N → EReal) (b2 : Fin N → EReal) (Wx : Fin n → Fin N → EReal) (Wy : Fin N → Fin N → EReal)
    (b3 : Fin N → EReal) (z : EReal) (c : Fin N) : EReal :=
  dense2 x (dense (dense x (folded A T B) b1 z) W2 b2 z) Wx Wy b3 z c

/-- The encoder as the message-passing network states it: the row sent along the edges both ways, the two results side
    by side through the first layer, then the second and third layers as before. -/
def encoderEdges {n N : ℕ} (x : Fin n → EReal) (A : Fin n → Fin n → EReal) (T B : Fin n → Fin N → EReal) (b1 : Fin N → EReal)
    (W2 : Fin N → Fin N → EReal) (b2 : Fin N → EReal) (Wx : Fin n → Fin N → EReal) (Wy : Fin N → Fin N → EReal)
    (b3 : Fin N → EReal) (z : EReal) (c : Fin N) : EReal :=
  dense2 x (dense (dense2 (fun q => ∑ k, x k * A q k) (fun q => ∑ k, x k * A k q) T B b1 z) W2 b2 z) Wx Wy b3 z c

/-- The inclusion of ℝ commutes with a finite sum. -/
theorem sum_coe {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- Associativity and distributivity of the matrix product, in ℝ: sending a row along the edges and then through the
    halves of the weights is multiplying it by the folded weights. -/
theorem fold_real {n : ℕ} (x : Fin n → ℝ) (A : Fin n → Fin n → ℝ) (T B : Fin n → ℝ) :
    ∑ q, (∑ k, x k * A q k) * T q + ∑ q, (∑ k, x k * A k q) * B q
      = ∑ k, x k * (∑ j, A j k * T j + ∑ j, A k j * B j) := by
  simp only [Finset.sum_mul, Finset.mul_sum, mul_add, Finset.sum_add_distrib]
  congr 1
  · rw [Finset.sum_comm]
    exact Finset.sum_congr rfl fun k _ => Finset.sum_congr rfl fun j _ => by ring
  · rw [Finset.sum_comm]
    exact Finset.sum_congr rfl fun k _ => Finset.sum_congr rfl fun j _ => by ring

/-- The same on the extended reals, for a row, an adjacency and weights whose entries are real. -/
theorem fold_ereal {n N : ℕ} {x : Fin n → EReal} {A : Fin n → Fin n → EReal} {T B : Fin n → Fin N → EReal}
    (hx : ∀ k, ∃ r : ℝ, x k = r) (hA : ∀ j k, ∃ r : ℝ, A j k = r) (hT : ∀ j c, ∃ r : ℝ, T j c = r)
    (hB : ∀ j c, ∃ r : ℝ, B j c = r) (c : Fin N) :
    ∑ q, (∑ k, x k * A q k) * T q c + ∑ q, (∑ k, x k * A k q) * B q c = ∑ k, x k * folded A T B k c := by
  choose x' hx' using hx
  choose A' hA' using hA
  choose T' hT' using hT
  choose B' hB' using hB
  obtain rfl : x = fun k => ((x' k : ℝ) : EReal) := funext hx'
  obtain rfl : A = fun j k => ((A' j k : ℝ) : EReal) := funext fun j => funext (hA' j)
  obtain rfl : T = fun j c => ((T' j c : ℝ) : EReal) := funext fun j => funext (hT' j)
  obtain rfl : B = fun j c => ((B' j c : ℝ) : EReal) := funext fun j => funext (hB' j)
  unfold folded
  simp only [← EReal.coe_mul, sum_coe, ← EReal.coe_add]
  exact congrArg _ (fold_real x' A' (fun j => T' j c) (fun j => B' j c))

/-- The two arrangements of the encoder agree on real rows, adjacencies and first-layer weights. -/
theorem encoderEdges_eq {n N : ℕ} {x : Fin n → EReal} {A : Fin n → Fin n → EReal} {T B : Fin n → Fin N → EReal}
    (hx : ∀ k, ∃ r : ℝ, x k = r) (hA : ∀ j k, ∃ r : ℝ, A j k = r) (hT : ∀ j c, ∃ r : ℝ, T j c = r)
    (hB : ∀ j c, ∃ r : ℝ, B j c = r) (b1 : Fin N → EReal) (W2 : Fin N → Fin N → EReal) (b2 : Fin N → EReal)
    (Wx : Fin n → Fin N → EReal) (Wy : Fin N → Fin N → EReal) (b3 : Fin N → EReal) (z : EReal) (c : Fin N) :
    encoderEdges x A T B b1 W2 b2 Wx Wy b3 z c = encoder x A T B b1 W2 b2 Wx Wy b3 z c := by
  unfold encoderEdges encoder
  have h1 : dense2 (fun q => ∑ k, x k * A q k) (fun q => ∑ k, x k * A k q) T B b1 z = dense x (folded A T B) b1 z := by
    funext d
    unfold dense2 dense
    rw [fold_ereal hx hA hT hB d]
  rw [h1]

end Cert.Proof.Encoder

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.KernelRow.lean ====
/-
  The kernel body's stored value, read at one index of the block.

  The body holds a block of 8000 rows of the input and the (folded) weights, and computes, for the whole block at once,
  three dense layers with the rectifier: the matrix products are taken into a zero accumulator (a weight matrix re-cast
  to its own shape is itself), each bias is one row
  repeated down the block, and the rectifier is the maximum with a block of zeros. Read at row `p` and column `q` the
  stored value depends on row `p` of the input block only, and is the encoder's row function of that row.
-/
import proofs.«169801_j68358699483893_2_alg».proof.Proof.Gen.KernelIdeal.Skeleton
import proofs.«169801_j68358699483893_2_alg».proof.Proof.Encoder
import proofs.«169801_j68358699483893_2_alg».proof.Proof.LibPlainDot
import Idealize.ShloMosaic.Lib.ValueIdx
import Idealize.ShloMosaic.Lib.ValueLayout
import Idealize.ShloMosaic.Lib.Pipeline.Value

noncomputable section

open scoped BigOperators

namespace Cert.Proof.KernelRow

open Cert.KernelIdeal Cert.KernelIdeal.Gen Idealize.ShloMosaic Idealize.ShloMosaic.ValueIdx Cert.Proof.Encoder

/-- The rectifier's floor: the float constant zero, as an extended real (never evaluated). -/
abbrev floor0 : EReal := Ideal.ofBits .f32 0x00000000#32

/-- A block times a weight matrix into a zero accumulator, read at `(p, q)`: `∑ₖ X (p, k) · W (k, q)`. -/
theorem product_apply (X : FVec Ideal S8000x10 .f32) (W : FVec Ideal S10x10 .f32) (p : Fin 8000) (q : Fin 10) :
    matmul dot_S8000x10_S10x10_S8000x10_1_0_0_1_n_n none X W
        (constant (F := Ideal) S8000x10 .f32 0x00000000#32) (ix2 p q)
      = ∑ k : Fin 10, X (ix2 p k) * W (ix2 k q) := by
  exact Cert.Proof.PlainDot.matmul_plain_zero none X W (ix2 p q)

/-- A bias row repeated down the block, read at `(p, q)`: the row at `q`. -/
theorem bias_apply (b : FVec Ideal S1x10 .f32) (p : Fin 8000) (q : Fin 10) :
    broadcastTo S8000x10 (shapeCast S1x10 b shapeCasts_S1x10_S1x10) broadcasts_S1x10_S8000x10 (ix2 p q)
      = b (ix2 (0 : Fin 1) q) := by
  rw [shapeCast_self]
  exact broadcastTo_1b_ab_apply b _ p q

/-- One dense layer with the rectifier, on a whole block. -/
def layerBlock (X : FVec Ideal S8000x10 .f32) (W : FVec Ideal S10x10 .f32) (b : FVec Ideal S1x10 .f32) :
    FVec Ideal S8000x10 .f32 :=
  maximumf (addf (matmul dot_S8000x10_S10x10_S8000x10_1_0_0_1_n_n none X W
      (constant (F := Ideal) S8000x10 .f32 0x00000000#32))
    (broadcastTo S8000x10 (shapeCast S1x10 b shapeCasts_S1x10_S1x10) broadcasts_S1x10_S8000x10))
    (broadcast S8000x10 (Scalar.ofBits (F := Ideal) .f32 0x00000000#32))

/-- Read at `(p, q)` it is the row function `dense` of row `p`. -/
theorem layerBlock_apply (X : FVec Ideal S8000x10 .f32) (W : FVec Ideal S10x10 .f32) (b : FVec Ideal S1x10 .f32)
    (p : Fin 8000) (q : Fin 10) :
    layerBlock X W b (ix2 p q)
      = dense (fun k => X (ix2 p k)) (fun k c => W (ix2 k c)) (fun c => b (ix2 (0 : Fin 1) c)) floor0 q := by
  unfold layerBlock dense
  rw [maximumf_apply, addf_apply, product_apply, bias_apply]
  rfl

/-- The last layer on a whole block: two products added, the bias, the rectifier. -/
def lastBlock (X Y : FVec Ideal S8000x10 .f32) (Wx Wy : FVec Ideal S10x10 .f32) (b : FVec Ideal S1x10 .f32) :
    FVec Ideal S8000x10 .f32 :=
  maximumf (addf (addf
      (matmul dot_S8000x10_S10x10_S8000x10_1_0_0_1_n_n none X Wx
        (constant (F := Ideal) S8000x10 .f32 0x00000000#32))
      (matmul dot_S8000x10_S10x10_S8000x10_1_0_0_1_n_n none Y Wy
        (constant (F := Ideal) S8000x10 .f32 0x00000000#32)))
    (broadcastTo S8000x10 (shapeCast S1x10 b shapeCasts_S1x10_S1x10) broadcasts_S1x10_S8000x10))
    (broadcast S8000x10 (Scalar.ofBits (F := Ideal) .f32 0x00000000#32))

/-- Read at `(p, q)` it is the row function `dense2` of rows `p` of the two blocks. -/
theorem lastBlock_apply (X Y : FVec Ideal S8000x10 .f32) (Wx Wy : FVec Ideal S10x10 .f32) (b : FVec Ideal S1x10 .f32)
    (p : Fin 8000) (q : Fin 10) :
    lastBlock X Y Wx Wy b (ix2 p q)
      = dense2 (fun k => X (ix2 p k)) (fun k => Y (ix2 p k)) (fun k c => Wx (ix2 k c)) (fun k c => Wy (ix2 k c))
          (fun c => b (ix2 (0 : Fin 1) c)) floor0 q := by
  unfold lastBlock dense2
  rw [maximumf_apply, addf_apply, addf_apply, product_apply, product_apply, bias_apply]
  rfl

/-- The body's stored value is the three layers composed. -/
theorem stored_eq (x0 : FVec Ideal S8000x10 .f32) (w1 : FVec Ideal S10x10 .f32) (b1 : FVec Ideal S1x10 .f32)
    (w2 : FVec Ideal S10x10 .f32) (b2 : FVec Ideal S1x10 .f32) (w3x w3h : FVec Ideal S10x10 .f32)
    (b3 : FVec Ideal S1x10 .f32) :
    k0_pay1 (F := Ideal) x0 w1 b1 w2 b2 w3x w3h b3
      = lastBlock x0 (layerBlock (layerBlock x0 (shapeCast S10x10 w1 shapeCasts_S10x10_S10x10) b1) w2 b2)
          (shapeCast S10x10 w3x shapeCasts_S10x10_S10x10) (shapeCast S10x10 w3h shapeCasts_S10x10_S10x10) b3 := by
  unfold k0_pay1 lastBlock layerBlock
  with_reducible rfl

/-- The body's stored value at row `p`, column `q` of the block: the second layer's output of row `p`, then the last
    layer over row `p` and that output side by side. -/
theorem stored_apply (x0 : FVec Ideal S8000x10 .f32) (w1 : FVec Ideal S10x10 .f32) (b1 : FVec Ideal S1x10 .f32)
    (w2 : FVec Ideal S10x10 .f32) (b2 : FVec Ideal S1x10 .f32) (w3x w3h : FVec Ideal S10x10 .f32)
    (b3 : FVec Ideal S1x10 .f32) (p : Fin 8000) (q : Fin 10) :
    k0_pay1 (F := Ideal) x0 w1 b1 w2 b2 w3x w3h b3 (ix2 p q)
      = dense2 (fun k => x0 (ix2 p k))
          (dense (dense (fun k => x0 (ix2 p k)) (fun k c => w1 (ix2 k c)) (fun c => b1 (ix2 (0 : Fin 1) c)) floor0)
            (fun k c => w2 (ix2 k c)) (fun c => b2 (ix2 (0 : Fin 1) c)) floor0)
          (fun k c => w3x (ix2 k c)) (fun k c => w3h (ix2 k c)) (fun c => b3 (ix2 (0 : Fin 1) c)) floor0 q := by
  rw [stored_eq, lastBlock_apply]
  simp only [layerBlock_apply, shapeCast_self]

end Cert.Proof.KernelRow

end
-- ==== Proof.HostSide.lean ====
/-
  What the kernel finds in the arrays its windows stage.

  Before the kernel is launched the program prepares, from the arguments, the small arrays the kernel reads: the
  adjacency folded into the first layer's weights — the transposed adjacency times the upper half of the first weight
  matrix plus the adjacency times its lower half —, the two halves of the third weight matrix, and each bias vector
  re-cast as a one-row matrix. The input and the second weight matrix are passed as they are. Here each of them is read
  at an index, as a function of the arguments.
-/
import proofs.«169801_j68358699483893_2_alg».proof.Proof.Gen.KernelIdeal.Frame
import proofs.«169801_j68358699483893_2_alg».proof.Proof.Encoder
import proofs.«169801_j68358699483893_2_alg».proof.Proof.LibPlainDot
import Idealize.ShloMosaic.Lib.StableHlo.Run
import Idealize.ShloMosaic.Lib.ValueIdx
import Idealize.ShloMosaic.Lib.ValueLayout
import Idealize.ShloMosaic.Lib.Pipeline.Value

noncomputable section

open scoped BigOperators

namespace Cert.Proof.HostSide

open Cert.KernelIdeal Cert.KernelIdeal.Gen Idealize.ShloMosaic Idealize.ShloMosaic.TcCoe Idealize.SL.Sem
  Idealize.ShloMosaic.ValueIdx Idealize.ShloMosaic.StableHlo Cert.Proof.Encoder

variable (m : (ℓ : Loc nD τ sig) → Buf (Elt Ideal) ℓ)

/-- The upper half of a twenty-row matrix, read at `(j, d)`. -/
theorem upper_apply (W : FVec Ideal S20x10 .f32) (j d : Fin 10) :
    extractStridedSlice S10x10 ![0, 0] W slices_S20x10_S10x10_0_0 (ix2 j d) = W (ix2 (Fin.castAdd 10 j) d) := by
  refine (slice2_axis0_eq 0 W slices_S20x10_S10x10_0_0 j d).trans ?_
  exact congrArg W (congrArg₂ ix2 (Fin.ext (Nat.zero_add _)) rfl)

/-- The lower half of a twenty-row matrix, read at `(j, d)`. -/
theorem lower_apply (W : FVec Ideal S20x10 .f32) (j d : Fin 10) :
    extractStridedSlice S10x10 ![10, 0] W slices_S20x10_S10x10_10_0 (ix2 j d) = W (ix2 (Fin.natAdd 10 j) d) := by
  refine (slice2_axis0_eq 10 W slices_S20x10_S10x10_10_0 j d).trans ?_
  exact congrArg W (congrArg₂ ix2 (Fin.ext rfl) rfl)

/-- The folded first-layer weights as the program computes them: the transposed adjacency times the upper half of
    the weights plus the adjacency times the lower half. -/
def foldedHost (A : FVec Ideal S10x10 .f32) (W : FVec Ideal S20x10 .f32) : FVec Ideal S10x10 .f32 :=
  addf (Host.dotGeneral (F := Ideal) dot_S10x10_S10x10_S10x10_1_0_0_1_n_n none
      (transpose S10x10 [1, 0] A transposes_S10x10_S10x10_1_0)
      (extractStridedSlice S10x10 ![0, 0] W slices_S20x10_S10x10_0_0))
    (Host.dotGeneral (F := Ideal) dot_S10x10_S10x10_S10x10_1_0_0_1_n_n none A
      (extractStridedSlice S10x10 ![10, 0] W slices_S20x10_S10x10_10_0))

/-- Read at `(k, d)` they are `∑ⱼ A (j, k) · W (j, d) + ∑ⱼ A (k, j) · W (10 + j, d)`. -/
theorem folded_apply (A : FVec Ideal S10x10 .f32) (W : FVec Ideal S20x10 .f32) (k d : Fin 10) :
    foldedHost A W (ix2 k d)
      = folded (fun j k => A (ix2 j k)) (fun j d => W (ix2 (Fin.castAdd 10 j) d)) (fun j d => W (ix2 (Fin.natAdd 10 j) d)) k d := by
  unfold foldedHost folded
  rw [addf_apply]
  refine congrArg₂ (· + ·) ?_ ?_
  · refine (Cert.Proof.PlainDot.dotGeneral_plain none _ _ _ (ix2 k d)).trans ?_
    refine Finset.sum_congr rfl fun j _ => ?_
    exact congrArg₂ (· * ·) (transpose_ix2_apply A transposes_S10x10_S10x10_1_0 k j) (upper_apply W j d)
  · refine (Cert.Proof.PlainDot.dotGeneral_plain none _ _ _ (ix2 k d)).trans ?_
    refine Finset.sum_congr rfl fun j _ => ?_
    exact congrArg₂ (· * ·) rfl (lower_apply W j d)

/-- Window 1's array: the folded first-layer weights of the adjacency and the first weight matrix. -/
theorem V_folded (c : Dev nD) (k d : Fin 10) :
    V m c main_v5 (ix2 k d)
      = folded (fun j k => m ((c : Thread nD τ).loc main_arg1) (ix2 j k))
          (fun j d => m ((c : Thread nD τ).loc main_arg2) (ix2 (Fin.castAdd 10 j) d))
          (fun j d => m ((c : Thread nD τ).loc main_arg2) (ix2 (Fin.natAdd 10 j) d)) k d := by
  have e : (V m c main_v5 : S10x10.Idx → EReal)
      = foldedHost (m ((c : Thread nD τ).loc main_arg1)) (m ((c : Thread nD τ).loc main_arg2)) := by
    dsimp only [Gen.V, Gen.hostOps0]; after_results <;> rfl
  rw [e]
  exact folded_apply _ _ k d

/-- Window 5's array: the upper half of the third weight matrix. -/
theorem V_upper3 (c : Dev nD) (k d : Fin 10) :
    V m c main_v6 (ix2 k d) = m ((c : Thread nD τ).loc main_arg6) (ix2 (Fin.castAdd 10 k) d) := by
  have e : (V m c main_v6 : S10x10.Idx → EReal)
      = extractStridedSlice S10x10 ![0, 0] (m ((c : Thread nD τ).loc main_arg6)) slices_S20x10_S10x10_0_0 := by
    dsimp only [Gen.V, Gen.hostOps0]; after_results <;> rfl
  rw [e]
  exact upper_apply _ k d

/-- Window 6's array: the lower half of the third weight matrix. -/
theorem V_lower3 (c : Dev nD) (k d : Fin 10) :
    V m c main_v7 (ix2 k d) = m ((c : Thread nD τ).loc main_arg6) (ix2 (Fin.natAdd 10 k) d) := by
  have e : (V m c main_v7 : S10x10.Idx → EReal)
      = extractStridedSlice S10x10 ![10, 0] (m ((c : Thread nD τ).loc main_arg6)) slices_S20x10_S10x10_10_0 := by
    dsimp only [Gen.V, Gen.hostOps0]; after_results <;> rfl
  rw [e]
  exact lower_apply _ k d

/-- Window 2's array: the first bias as a one-row matrix. -/
theorem V_bias1 (c : Dev nD) (d : Fin 10) :
    V m c main_v8 (ix2 (0 : Fin 1) d) = m ((c : Thread nD τ).loc main_arg3) (ix1 d) := by
  have e : (V m c main_v8 : S1x10.Idx → EReal)
      = shapeCast S1x10 (m ((c : Thread nD τ).loc main_arg3)) shapeCasts_S10_S1x10 := by
    dsimp only [Gen.V, Gen.hostOps0]; after_results <;> rfl
  rw [e]
  exact shapeCast_a_1a_apply _ shapeCasts_S10_S1x10 0 d

/-- Window 4's array: the second bias as a one-row matrix. -/
theorem V_bias2 (c : Dev nD) (d : Fin 10) :
    V m c main_v9 (ix2 (0 : Fin 1) d) = m ((c : Thread nD τ).loc main_arg5) (ix1 d) := by
  have e : (V m c main_v9 : S1x10.Idx → EReal)
      = shapeCast S1x10 (m ((c : Thread nD τ).loc main_arg5)) shapeCasts_S10_S1x10 := by
    dsimp only [Gen.V, Gen.hostOps0]; after_results <;> rfl
  rw [e]
  exact shapeCast_a_1a_apply _ shapeCasts_S10_S1x10 0 d

/-- Window 7's array: the third bias as a one-row matrix. -/
theorem V_bias3 (c : Dev nD) (d : Fin 10) :
    V m c main_v10 (ix2 (0 : Fin 1) d) = m ((c : Thread nD τ).loc main_arg7) (ix1 d) := by
  have e : (V m c main_v10 : S1x10.Idx → EReal)
      = shapeCast S1x10 (m ((c : Thread nD τ).loc main_arg7)) shapeCasts_S10_S1x10 := by
    dsimp only [Gen.V, Gen.hostOps0]; after_results <;> rfl
  rw [e]
  exact shapeCast_a_1a_apply _ shapeCasts_S10_S1x10 0 d

end Cert.Proof.HostSide

end
-- ==== Proof.Spec.lean ====
/-
  The encoder's result as one function of the whole argument arrays.

  Entry `(r, c)` of the result is the encoder's row function of row `r` of the input, at column `c`; the weight
  matrices of twenty rows enter through their upper and lower halves. Two forms: with the adjacency folded into the
  first layer's weights, and as the message-passing network states it. They agree wherever the input, the adjacency
  and the first weight matrix hold real numbers.
-/
import Idealize.ShloMosaic.Lib.ValueIdx
import proofs.«169801_j68358699483893_2_alg».proof.Proof.Encoder

noncomputable section

namespace Cert.Proof.Spec

open Idealize.ShloMosaic Idealize.ShloMosaic.ValueIdx Cert.Proof.Encoder

/-- The rectifier's floor: the float constant zero, as an extended real (never evaluated). -/
abbrev floor0 : EReal := Ideal.ofBits .f32 0x00000000#32

abbrev Rows : Shape := ⟨2, ![4000000, 10]⟩
abbrev Sq : Shape := ⟨2, ![10, 10]⟩
abbrev Tall : Shape := ⟨2, ![20, 10]⟩
abbrev Vect : Shape := ⟨1, ![10]⟩

/-- The result with the adjacency folded into the first layer's weights. -/
def result (X : Rows.Idx → EReal) (A : Sq.Idx → EReal) (W1 : Tall.Idx → EReal) (b1 : Vect.Idx → EReal)
    (W2 : Sq.Idx → EReal) (b2 : Vect.Idx → EReal) (W3 : Tall.Idx → EReal) (b3 : Vect.Idx → EReal) : Rows.Idx → EReal :=
  fun i => encoder (fun k => X (ix2 (i 0) k)) (fun j k => A (ix2 j k))
    (fun j d => W1 (ix2 (Fin.castAdd 10 j) d)) (fun j d => W1 (ix2 (Fin.natAdd 10 j) d)) (fun d => b1 (ix1 d))
    (fun k d => W2 (ix2 k d)) (fun d => b2 (ix1 d))
    (fun k d => W3 (ix2 (Fin.castAdd 10 k) d)) (fun k d => W3 (ix2 (Fin.natAdd 10 k) d)) (fun d => b3 (ix1 d)) floor0 (i 1)

/-- The result as the message-passing network states it. -/
def resultEdges (X : Rows.Idx → EReal) (A : Sq.Idx → EReal) (W1 : Tall.Idx → EReal) (b1 : Vect.Idx → EReal)
    (W2 : Sq.Idx → EReal) (b2 : Vect.Idx → EReal) (W3 : Tall.Idx → EReal) (b3 : Vect.Idx → EReal) : Rows.Idx → EReal :=
  fun i => encoderEdges (fun k => X (ix2 (i 0) k)) (fun j k => A (ix2 j k))
    (fun j d => W1 (ix2 (Fin.castAdd 10 j) d)) (fun j d => W1 (ix2 (Fin.natAdd 10 j) d)) (fun d => b1 (ix1 d))
    (fun k d => W2 (ix2 k d)) (fun d => b2 (ix1 d))
    (fun k d => W3 (ix2 (Fin.castAdd 10 k) d)) (fun k d => W3 (ix2 (Fin.natAdd 10 k) d)) (fun d => b3 (ix1 d)) floor0 (i 1)

/-- The two forms agree where the input, the adjacency and the first weight matrix are real. -/
theorem resultEdges_eq {X : Rows.Idx → EReal} {A : Sq.Idx → EReal} {W1 : Tall.Idx → EReal}
    (hX : ∀ i, ∃ r : ℝ, X i = r) (hA : ∀ i, ∃ r : ℝ, A i = r) (hW : ∀ i, ∃ r : ℝ, W1 i = r)
    (b1 : Vect.Idx → EReal) (W2 : Sq.Idx → EReal) (b2 : Vect.Idx → EReal) (W3 : Tall.Idx → EReal) (b3 : Vect.Idx → EReal) :
    resultEdges X A W1 b1 W2 b2 W3 b3 = result X A W1 b1 W2 b2 W3 b3 := by
  funext i
  exact encoderEdges_eq (fun k => hX _) (fun j k => hA _) (fun j d => hW _) (fun j d => hW _) _ _ _ _ _ _ _ _

end Cert.Proof.Spec

end
-- ==== Proof.KernelValue.lean ====
/-
  The kernel's result array after the run, as one function of the arguments.

  The grid has 500 points; point `t` reads rows `8000·t … 8000·t + 7999` of the input and every small array whole, and
  writes back rows `8000·t … 8000·t + 7999` of the result. What it writes at row `p`, column `q` of its block is the
  encoder's row function of row `8000·t + p` of the input, with the weights as the program prepared them — so it is block
  `t` of the encoder's result as a function of the arguments. The 500 blocks cover all four million rows (row `r` lies
  in block `r / 8000`), so the array ends holding that function everywhere.
-/
import proofs.«169801_j68358699483893_2_alg».proof.Proof.Gen.KernelIdeal.Value
import proofs.«169801_j68358699483893_2_alg».proof.Proof.KernelRow
import proofs.«169801_j68358699483893_2_alg».proof.Proof.HostSide
import proofs.«169801_j68358699483893_2_alg».proof.Proof.Spec

noncomputable section

namespace Cert.Proof.KernelValue

open Cert.KernelIdeal Cert.KernelIdeal.Gen Idealize.ShloMosaic Idealize.ShloMosaic.TcCoe Idealize.SL.Sem
  Idealize.ShloMosaic.ValueIdx Cert.Proof.Encoder Cert.Proof.Spec
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps, decided over the 500 grid points: the input's and the result's blocks sit at block row `t`,
    every other window at block `(0, 0)`. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Point `t`'s input block at `(p, k)` is the input at row `8000·t + p`. -/
theorem read_input (c : Dev nD) (t : Fin cfg0.N) (p : Fin 8000) (k : Fin 10) (r : Fin 4000000)
    (hr : r.val = t.val * 8000 + p.val) :
    (iblk m c 0 t : FVec Ideal S8000x10 .f32) (ix2 p k) = m ((c : Thread nD τ).loc main_arg0) (ix2 r k) := by
  show V m c main_arg0 (((cfg0.win 0).blk t).view.emb (ix2 p k)) = _
  rw [V_main_arg0]
  obtain ⟨e0, e1, -⟩ := index_maps t
  refine congrArg (m ((c : Thread nD τ).loc main_arg0)) (funext fun a => Fin.ext ?_)
  match a with
  | ⟨0, _⟩ => show win0_0.index t (0 : Fin 2) * 8000 + 1 * p.val = r.val; omega
  | ⟨1, _⟩ => show win0_0.index t (1 : Fin 2) * 10 + 1 * k.val = k.val; omega

/-- A window whose one block is its whole ten-by-ten array reads that array. -/
theorem read_sq1 (c : Dev nD) (t : Fin cfg0.N) (k d : Fin 10) :
    (iblk m c 1 t : FVec Ideal S10x10 .f32) (ix2 k d) = V m c main_v5 (ix2 k d) := by
  show V m c main_v5 (((cfg0.win 1).blk t).view.emb (ix2 k d)) = _
  obtain ⟨-, -, e0, e1, -⟩ := index_maps t
  refine congrArg (V m c main_v5) (funext fun a => Fin.ext ?_)
  match a with
  | ⟨0, _⟩ => show win0_1.index t (0 : Fin 2) * 10 + 1 * k.val = k.val; omega
  | ⟨1, _⟩ => show win0_1.index t (1 : Fin 2) * 10 + 1 * d.val = d.val; omega

theorem read_sq3 (c : Dev nD) (t : Fin cfg0.N) (k d : Fin 10) :
    (iblk m c 3 t : FVec Ideal S10x10 .f32) (ix2 k d) = m ((c : Thread nD τ).loc main_arg4) (ix2 k d) := by
  show V m c main_arg4 (((cfg0.win 3).blk t).view.emb (ix2 k d)) = _
  rw [V_main_arg4]
  obtain ⟨-, -, -, -, -, -, e0, e1, -⟩ := index_maps t
  refine congrArg (m ((c : Thread nD τ).loc main_arg4)) (funext fun a => Fin.ext ?_)
  match a with
  | ⟨0, _⟩ => show win0_3.index t (0 : Fin 2) * 10 + 1 * k.val = k.val; omega
  | ⟨1, _⟩ => show win0_3.index t (1 : Fin 2) * 10 + 1 * d.val = d.val; omega

theorem read_sq5 (c : Dev nD) (t : Fin cfg0.N) (k d : Fin 10) :
    (iblk m c 5 t : FVec Ideal S10x10 .f32) (ix2 k d) = V m c main_v6 (ix2 k d) := by
  show V m c main_v6 (((cfg0.win 5).blk t).view.emb (ix2 k d)) = _
  obtain ⟨-, -, -, -, -, -, -, -, -, -, e0, e1, -⟩ := index_maps t
  refine congrArg (V m c main_v6) (funext fun a => Fin.ext ?_)
  match a with
  | ⟨0, _⟩ => show win0_5.index t (0 : Fin 2) * 10 + 1 * k.val = k.val; omega
  | ⟨1, _⟩ => show win0_5.index t (1 : Fin 2) * 10 + 1 * d.val = d.val; omega

theorem read_sq6 (c : Dev nD) (t : Fin cfg0.N) (k d : Fin 10) :
    (iblk m c 6 t : FVec Ideal S10x10 .f32) (ix2 k d) = V m c main_v7 (ix2 k d) := by
  show V m c main_v7 (((cfg0.win 6).blk t).view.emb (ix2 k d)) = _
  obtain ⟨-, -, -, -, -, -, -, -, -, -, -, -, e0, e1, -⟩ := index_maps t
  refine congrArg (V m c main_v7) (funext fun a => Fin.ext ?_)
  match a with
  | ⟨0, _⟩ => show win0_6.index t (0 : Fin 2) * 10 + 1 * k.val = k.val; omega
  | ⟨1, _⟩ => show win0_6.index t (1 : Fin 2) * 10 + 1 * d.val = d.val; omega

/-- A window whose one block is its whole one-row array reads that array. -/
theorem read_row2 (c : Dev nD) (t : Fin cfg0.N) (d : Fin 10) :
    (iblk m c 2 t : FVec Ideal S1x10 .f32) (ix2 (0 : Fin 1) d) = V m c main_v8 (ix2 (0 : Fin 1) d) := by
  show V m c main_v8 (((cfg0.win 2).blk t).view.emb (ix2 (0 : Fin 1) d)) = _
  obtain ⟨-, -, -, -, e0, e1, -⟩ := index_maps t
  refine congrArg (V m c main_v8) (funext fun a => Fin.ext ?_)
  match a with
  | ⟨0, _⟩ => show win0_2.index t (0 : Fin 2) * 1 + 1 * 0 = 0; omega
  | ⟨1, _⟩ => show win0_2.index t (1 : Fin 2) * 10 + 1 * d.val = d.val; omega

theorem read_row4 (c : Dev nD) (t : Fin cfg0.N) (d : Fin 10) :
    (iblk m c 4 t : FVec Ideal S1x10 .f32) (ix2 (0 : Fin 1) d) = V m c main_v9 (ix2 (0 : Fin 1) d) := by
  show V m c main_v9 (((cfg0.win 4).blk t).view.emb (ix2 (0 : Fin 1) d)) = _
  obtain ⟨-, -, -, -, -, -, -, -, e0, e1, -⟩ := index_maps t
  refine congrArg (V m c main_v9) (funext fun a => Fin.ext ?_)
  match a with
  | ⟨0, _⟩ => show win0_4.index t (0 : Fin 2) * 1 + 1 * 0 = 0; omega
  | ⟨1, _⟩ => show win0_4.index t (1 : Fin 2) * 10 + 1 * d.val = d.val; omega

theorem read_row7 (c : Dev nD) (t : Fin cfg0.N) (d : Fin 10) :
    (iblk m c 7 t : FVec Ideal S1x10 .f32) (ix2 (0 : Fin 1) d) = V m c main_v10 (ix2 (0 : Fin 1) d) := by
  show V m c main_v10 (((cfg0.win 7).blk t).view.emb (ix2 (0 : Fin 1) d)) = _
  obtain ⟨-, -, -, -, -, -, -, -, -, -, -, -, -, -, e0, e1, -⟩ := index_maps t
  refine congrArg (V m c main_v10) (funext fun a => Fin.ext ?_)
  match a with
  | ⟨0, _⟩ => show win0_7.index t (0 : Fin 2) * 1 + 1 * 0 = 0; omega
  | ⟨1, _⟩ => show win0_7.index t (1 : Fin 2) * 10 + 1 * d.val = d.val; omega

/-- The three layers composed are a function of their row and weights: equal inputs give equal outputs. -/
theorem layers_congr {x x' : Fin 10 → EReal} {w1 w1' w2 w2' wx wx' wy wy' : Fin 10 → Fin 10 → EReal}
    {b1 b1' b2 b2' b3 b3' : Fin 10 → EReal} (hx : x = x') (h1 : w1 = w1') (hb1 : b1 = b1') (h2 : w2 = w2') (hb2 : b2 = b2')
    (h3 : wx = wx') (h4 : wy = wy') (hb3 : b3 = b3') (z : EReal) (q : Fin 10) :
    dense2 x (dense (dense x w1 b1 z) w2 b2 z) wx wy b3 z q = dense2 x' (dense (dense x' w1' b1' z) w2' b2' z) wx' wy' b3' z q := by
  subst hx h1 hb1 h2 hb2 h3 h4 hb3
  rfl

/-- The result as a function of the launch memory. -/
abbrev resultOf (c : Dev nD) : S4000000x10.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What point `t` writes back is block `t` of the encoder's result. -/
theorem flushed_eq (c : Dev nD) (t : Fin cfg0.N) :
    (dats m 0 c).flushed 8 t = ((cfg0.win 8).blk t).view.read (Elt Ideal) (resultOf m c) := by
  rw [Cert.KernelIdeal.Value.flushed8]
  unfold out0_8
  rw [View.canon_unit_zero offsets_zero]
  simp only [View.ld_unit_zero (S := S8000x10) offsets_zero, View.ld_unit_zero (S := S10x10) offsets_zero,
    View.ld_unit_zero (S := S1x10) offsets_zero]
  funext j
  obtain ⟨p, q, rfl⟩ : ∃ (p : Fin 8000) (q : Fin 10), j = ix2 p q := ⟨j 0, j 1, eq_ix2 j⟩
  have hN : grid0.N = 500 := N_0
  have ht : t.val < 500 := hN ▸ t.isLt
  obtain ⟨-, -, -, -, -, -, -, -, -, -, -, -, -, -, -, -, e0, e1⟩ := index_maps t
  have hemb : ((cfg0.win 8).blk t).view.emb (ix2 p q) = ix2 (⟨t.val * 8000 + p.val, by omega⟩ : Fin 4000000) q := by
    funext a
    refine Fin.ext ?_
    match a with
    | ⟨0, _⟩ => show win0_8.index t (0 : Fin 2) * 8000 + 1 * p.val = t.val * 8000 + p.val; omega
    | ⟨1, _⟩ => show win0_8.index t (1 : Fin 2) * 10 + 1 * q.val = q.val; omega
  show k0_pay1 (F := Ideal) (iblk m c 0 t) (iblk m c 1 t) (iblk m c 2 t) (iblk m c 3 t) (iblk m c 4 t) (iblk m c 5 t)
      (iblk m c 6 t) (iblk m c 7 t) (ix2 p q) = resultOf m c (((cfg0.win 8).blk t).view.emb (ix2 p q))
  rw [hemb]
  refine (Cert.Proof.KernelRow.stored_apply (iblk m c 0 t) (iblk m c 1 t) (iblk m c 2 t) (iblk m c 3 t) (iblk m c 4 t)
    (iblk m c 5 t) (iblk m c 6 t) (iblk m c 7 t) p q).trans ?_
  exact layers_congr
    (funext fun k => read_input m c t p k _ rfl)
    (funext fun k => funext fun d => (read_sq1 m c t k d).trans (Cert.Proof.HostSide.V_folded m c k d))
    (funext fun d => (read_row2 m c t d).trans (Cert.Proof.HostSide.V_bias1 m c d))
    (funext fun k => funext fun d => read_sq3 m c t k d)
    (funext fun d => (read_row4 m c t d).trans (Cert.Proof.HostSide.V_bias2 m c d))
    (funext fun k => funext fun d => (read_sq5 m c t k d).trans (Cert.Proof.HostSide.V_upper3 m c k d))
    (funext fun k => funext fun d => (read_sq6 m c t k d).trans (Cert.Proof.HostSide.V_lower3 m c k d))
    (funext fun d => (read_row7 m c t d).trans (Cert.Proof.HostSide.V_bias3 m c d))
    _ q

/-- An index of the result is in point `t`'s block iff each coordinate is in the block's range on its axis. -/
theorem mem_block (t : Fin cfg0.N) (i : S4000000x10.Idx) :
    i ∈ ((cfg0.win 8).blk t).view.set ↔ ∀ a : Fin 2, win0_8.index t a * S8000x10.size a ≤ (i a).val
      ∧ (i a).val < win0_8.index t a * S8000x10.size a + S8000x10.size a := by
  show i ∈ ((View.whole main_v11).slice (win0_8.rect t)).set ↔ _
  rw [View.set_slice_whole, Rect.mem_set_unit]
  exact Iff.rfl

/-- Every index of the result lies in some point's block: row `r` in block `r / 8000`. -/
theorem covered (i : S4000000x10.Idx) :
    ∃ t : Fin cfg0.N, (cfg0.win 8).flush t = true ∧ i ∈ ((cfg0.win 8).blk t).view.set := by
  have hi0 : (i 0).val < 4000000 := (i 0).isLt
  have hi1 : (i 1).val < 10 := (i 1).isLt
  have hN : grid0.N = 500 := N_0
  have hlt : (i 0).val / 8000 < grid0.N := by rw [hN]; omega
  obtain ⟨-, -, -, -, -, -, -, -, -, -, -, -, -, -, -, -, e0, e1⟩ := index_maps ⟨(i 0).val / 8000, hlt⟩
  refine ⟨⟨(i 0).val / 8000, hlt⟩, flush0_8 _, ?_⟩
  rw [mem_block]
  intro a
  match a with
  | ⟨0, _⟩ =>
    show win0_8.index ⟨(i 0).val / 8000, hlt⟩ (0 : Fin 2) * 8000 ≤ (i 0).val
      ∧ (i 0).val < win0_8.index ⟨(i 0).val / 8000, hlt⟩ (0 : Fin 2) * 8000 + 8000
    rw [e0]
    show (i 0).val / 8000 * 8000 ≤ (i 0).val ∧ (i 0).val < (i 0).val / 8000 * 8000 + 8000
    omega
  | ⟨1, _⟩ =>
    show win0_8.index ⟨(i 0).val / 8000, hlt⟩ (1 : Fin 2) * 10 ≤ (i 1).val
      ∧ (i 1).val < win0_8.index ⟨(i 0).val / 8000, hlt⟩ (1 : Fin 2) * 10 + 10
    omega

/-- The result array after the run is the encoder's result of the arguments. -/
theorem final (c : Dev nD) : (dats m 0 c).arrAt 8 cfg0.N = resultOf m c :=
  (dats m 0 c).arrAt_eq_of_cover 8 (resultOf m c) (fun t _ => flushed_eq m c t) covered

/-- The kernel's run: every weakly fair execution terminates with the result array at the encoder's result of the
    arguments and the arguments unchanged. -/
theorem run : θ_run defs (onTc (τ := τ) (main (F := Ideal))) ⟨m, fun _ => 0, ρ⟩ fun r => ∀ c : Dev nD,
      r.2.mem ((c : Thread nD τ).loc main_v11) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.Proof.KernelValue

end
-- ==== Proof.LibConcatAt.lean ====
/-
  Matrices with the same number of rows laid side by side, read at an index known by its coordinates' values.

  Two pieces `x₁ : [n, a]`, `x₂ : [n, b]` joined along the columns into `[n, c]`: at an index whose row is `r` and
  whose column is `k < a` the joined array is `x₁ (r, k)`; at column `a + k` with `k < b` it is `x₂ (r, k)`.
  Three pieces `[n, a0]`, `[n, a1]`, `[n, a2]`: piece `p` starts at the sum of the extents before it, so columns
  `k`, `a0 + k`, `a0 + a1 + k` read pieces 0, 1, 2 at `(r, k)`.
  The index is ANY index of the joined shape with its two coordinates given as equations between naturals: the form in
  which a contraction's operand index arrives.
-/
import Idealize.ShloMosaic.Lib.ValueIdx
import Idealize.ShloMosaic.Lib.Pipeline.Value

noncomputable section

namespace Cert.Proof.ConcatAt

open Idealize.ShloMosaic Idealize.ShloMosaic.ValueIdx

variable {α : Type}

/-- Two pieces, a column of the left one. -/
theorem pair_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin a) (hr : (j 0).val = r.val) (hk : (j 1).val = k.val) :
    concatenate ⟨2, ![n, c]⟩ (1 : Fin 2) [⟨⟨2, ![n, a]⟩, x₁⟩, ⟨⟨2, ![n, b]⟩, x₂⟩] h j = x₁ (ix2 r k) :=
  concatenate_pair_apply_left (1 : Fin 2) x₁ x₂ h j rfl (ix2 r k) (fun bx => by
    match bx with
    | ⟨0, _⟩ => exact hr.symm
    | ⟨1, _⟩ => exact hk.symm)

/-- Two pieces, a column of the right one. -/
theorem pair_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin b) (hr : (j 0).val = r.val) (hk : (j 1).val = a + k.val) :
    concatenate ⟨2, ![n, c]⟩ (1 : Fin 2) [⟨⟨2, ![n, a]⟩, x₁⟩, ⟨⟨2, ![n, b]⟩, x₂⟩] h j = x₂ (ix2 r k) :=
  concatenate_pair_apply_right (1 : Fin 2) x₁ x₂ h j rfl rfl (ix2 r k) (fun bx hb => by
    match bx with
    | ⟨0, _⟩ => exact hr.symm
    | ⟨1, _⟩ => exact absurd rfl hb)
    (by show k.val + a = (j 1).val; omega)

/-- Three pieces, a column of piece 0. -/
theorem three_0 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a0) (hr : (j 0).val = r.val) (hk : (j 1).val = k.val) :
    concatenate ⟨2, ![n, c]⟩ (1 : Fin 2) [⟨⟨2, ![n, a0]⟩, x0⟩, ⟨⟨2, ![n, a1]⟩, x1⟩, ⟨⟨2, ![n, a2]⟩, x2⟩] h j = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    0 (by simp) ⟨2, ![n, a0]⟩ x0 rfl rfl 0 (by simp) (ix2 r k) (fun bx hb => by
      match bx with
      | ⟨0, _⟩ => exact hr.symm
      | ⟨1, _⟩ => exact absurd rfl hb) (by show 0 + k.val = (j 1).val; omega)

/-- Three pieces, a column of piece 1. -/
theorem three_1 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a1) (hr : (j 0).val = r.val) (hk : (j 1).val = a0 + k.val) :
    concatenate ⟨2, ![n, c]⟩ (1 : Fin 2) [⟨⟨2, ![n, a0]⟩, x0⟩, ⟨⟨2, ![n, a1]⟩, x1⟩, ⟨⟨2, ![n, a2]⟩, x2⟩] h j = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    1 (by simp) ⟨2, ![n, a1]⟩ x1 rfl rfl a0 (by simp) (ix2 r k) (fun bx hb => by
      match bx with
      | ⟨0, _⟩ => exact hr.symm
      | ⟨1, _⟩ => exact absurd rfl hb) (by show a0 + k.val = (j 1).val; omega)

/-- Three pieces, a column of piece 2. -/
theorem three_2 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a2) (hr : (j 0).val = r.val) (hk : (j 1).val = a0 + a1 + k.val) :
    concatenate ⟨2, ![n, c]⟩ (1 : Fin 2) [⟨⟨2, ![n, a0]⟩, x0⟩, ⟨⟨2, ![n, a1]⟩, x1⟩, ⟨⟨2, ![n, a2]⟩, x2⟩] h j = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    2 (by simp) ⟨2, ![n, a2]⟩ x2 rfl rfl (a0 + a1) (by simp) (ix2 r k) (fun bx hb => by
      match bx with
      | ⟨0, _⟩ => exact hr.symm
      | ⟨1, _⟩ => exact absurd rfl hb) (by show a0 + a1 + k.val = (j 1).val; omega)

end Cert.Proof.ConcatAt

end
-- ==== Proof.RefRow.lean ====
/-
  The reference's result, read at one index.

  The reference computes, for all four million rows at once: the rows sent along the edges both ways (two products with
  the adjacency, one of them transposed), the two results laid side by side and multiplied by the first weight matrix,
  a bias and the rectifier; a second dense layer; then the input and the second layer's output side by side through
  the third weight matrix, a bias and the rectifier. Read at row `r` and column `c`, a product against a matrix whose
  left operand is two pieces side by side is the sum over the left piece's columns against the upper half of the
  matrix plus the sum over the right piece's columns against the lower half; each bias is one vector repeated down the
  rows. So the result at `(r, c)` is the message-passing form of the encoder's row function of row `r` of the input.
-/
import proofs.«169801_j68358699483893_2_alg».proof.Proof.Gen.ReferenceIdeal.Read
import proofs.«169801_j68358699483893_2_alg».proof.Proof.Spec
import proofs.«169801_j68358699483893_2_alg».proof.Proof.LibConcatAt
import Idealize.ShloMosaic.Lib.ValueIdx

noncomputable section

open scoped BigOperators

namespace Cert.Proof.RefRow

open Cert.ReferenceIdeal Cert.ReferenceIdeal.Read Idealize.ShloMosaic Idealize.ShloMosaic.ValueIdx Cert.Proof.Encoder
  Cert.Proof.Spec

variable (x0 : (⟨S4000000x10, .f32⟩ : BufTy).Contents (Elt Ideal)) (x1 : (⟨S10x10, .f32⟩ : BufTy).Contents (Elt Ideal))
  (x2 : (⟨S20x10, .f32⟩ : BufTy).Contents (Elt Ideal)) (x3 : (⟨S10, .f32⟩ : BufTy).Contents (Elt Ideal))
  (x4 : (⟨S10x10, .f32⟩ : BufTy).Contents (Elt Ideal)) (x5 : (⟨S10, .f32⟩ : BufTy).Contents (Elt Ideal))
  (x6 : (⟨S20x10, .f32⟩ : BufTy).Contents (Elt Ideal)) (x7 : (⟨S10, .f32⟩ : BufTy).Contents (Elt Ideal))

/-- Row `r` sent against the edges' direction: `∑ₖ X (r, k) · A (q, k)` (the product with the transposed adjacency). -/
theorem send_apply (r : Fin 4000000) (q : Fin 10) :
    val_main_v1 (F := Ideal) x0 x1 (ix2 r q) = ∑ k : Fin 10, x0 (ix2 r k) * x1 (ix2 q k) := by
  rw [val_main_v1_apply]
  refine Finset.sum_congr rfl fun k _ => ?_
  rw [val_main_v0_apply]
  exact congrArg₂ (· * ·)
    (congrArg x0 (funext fun a => by match a with | ⟨0, _⟩ => rfl | ⟨1, _⟩ => rfl))
    (congrArg x1 (funext fun a => by match a with | ⟨0, _⟩ => rfl | ⟨1, _⟩ => rfl))

/-- Row `r` sent along the edges: `∑ₖ X (r, k) · A (k, q)`. -/
theorem recv_apply (r : Fin 4000000) (q : Fin 10) :
    val_main_v2 (F := Ideal) x0 x1 (ix2 r q) = ∑ k : Fin 10, x0 (ix2 r k) * x1 (ix2 k q) := by
  rw [val_main_v2_apply]
  refine Finset.sum_congr rfl fun k _ => ?_
  exact congrArg₂ (· * ·)
    (congrArg x0 (funext fun a => by match a with | ⟨0, _⟩ => rfl | ⟨1, _⟩ => rfl))
    (congrArg x1 (funext fun a => by match a with | ⟨0, _⟩ => rfl | ⟨1, _⟩ => rfl))

/-- A bias vector repeated down the rows, read at `(r, c)`: the vector at `c`. -/
theorem bias1_apply (r : Fin 4000000) (c : Fin 10) : val_main_v6 (F := Ideal) x3 (ix2 r c) = x3 (ix1 c) := by
  rw [val_main_v6_apply, val_main_v5_apply]
  exact congrArg x3 (funext fun a => by match a with | ⟨0, _⟩ => rfl)

theorem bias2_apply (r : Fin 4000000) (c : Fin 10) : val_main_v11 (F := Ideal) x5 (ix2 r c) = x5 (ix1 c) := by
  rw [val_main_v11_apply, val_main_v10_apply]
  exact congrArg x5 (funext fun a => by match a with | ⟨0, _⟩ => rfl)

theorem bias3_apply (r : Fin 4000000) (c : Fin 10) : val_main_v17 (F := Ideal) x7 (ix2 r c) = x7 (ix1 c) := by
  rw [val_main_v17_apply, val_main_v16_apply]
  exact congrArg x7 (funext fun a => by match a with | ⟨0, _⟩ => rfl)

/-- The product of two pieces side by side with the first weight matrix: the left piece against the upper half plus
    the right piece against the lower half. -/
theorem edges_product_apply (r : Fin 4000000) (c : Fin 10) :
    val_main_v4 (F := Ideal) x0 x1 x2 (ix2 r c)
      = ∑ q : Fin 10, val_main_v1 (F := Ideal) x0 x1 (ix2 r q) * x2 (ix2 (Fin.castAdd 10 q) c)
        + ∑ q : Fin 10, val_main_v2 (F := Ideal) x0 x1 (ix2 r q) * x2 (ix2 (Fin.natAdd 10 q) c) := by
  rw [val_main_v4_apply]
  refine (Fin.sum_univ_add (M := EReal) (a := 10) (b := 10) _).trans ?_
  refine congrArg₂ (· + ·) (Finset.sum_congr rfl fun q _ => ?_) (Finset.sum_congr rfl fun q _ => ?_)
  · refine congrArg₂ (· * ·) ?_ (congrArg x2 (funext fun a => by match a with | ⟨0, _⟩ => rfl | ⟨1, _⟩ => rfl))
    unfold val_main_v3
    exact Cert.Proof.ConcatAt.pair_left _ _ _ _ r q rfl rfl
  · refine congrArg₂ (· * ·) ?_ (congrArg x2 (funext fun a => by match a with | ⟨0, _⟩ => rfl | ⟨1, _⟩ => rfl))
    unfold val_main_v3
    exact Cert.Proof.ConcatAt.pair_right _ _ _ _ r q rfl rfl

/-- The first layer's output at `(r, c)`. -/
theorem layer1_apply (r : Fin 4000000) (c : Fin 10) :
    val_main_v8 (F := Ideal) x0 x1 x2 x3 (ix2 r c)
      = dense2 (fun q => ∑ k : Fin 10, x0 (ix2 r k) * x1 (ix2 q k)) (fun q => ∑ k : Fin 10, x0 (ix2 r k) * x1 (ix2 k q))
          (fun j d => x2 (ix2 (Fin.castAdd 10 j) d)) (fun j d => x2 (ix2 (Fin.natAdd 10 j) d)) (fun d => x3 (ix1 d)) floor0 c := by
  rw [val_main_v8_apply, val_main_v7_apply, edges_product_apply, bias1_apply, val_main_call0_v0_apply,
    val_main_call0_cst_apply]
  simp only [send_apply, recv_apply]
  rfl

/-- The second layer's output at `(r, c)`, from the first layer's output of the same row. -/
theorem layer2_apply (r : Fin 4000000) (c : Fin 10) :
    val_main_v13 (F := Ideal) x0 x1 x2 x3 x4 x5 (ix2 r c)
      = dense (fun k => val_main_v8 (F := Ideal) x0 x1 x2 x3 (ix2 r k)) (fun k d => x4 (ix2 k d)) (fun d => x5 (ix1 d)) floor0 c := by
  rw [val_main_v13_apply, val_main_v12_apply, val_main_v9_apply, bias2_apply, val_main_call1_v0_apply,
    val_main_call1_cst_apply]
  unfold dense
  refine congrArg₂ max (congrArg₂ (· + ·) (Finset.sum_congr rfl fun k _ => ?_) rfl) rfl
  exact congrArg₂ (· * ·)
    (congrArg _ (funext fun a => by match a with | ⟨0, _⟩ => rfl | ⟨1, _⟩ => rfl))
    (congrArg x4 (funext fun a => by match a with | ⟨0, _⟩ => rfl | ⟨1, _⟩ => rfl))

/-- The product of the input and the second layer's output side by side with the third weight matrix. -/
theorem last_product_apply (r : Fin 4000000) (c : Fin 10) :
    val_main_v15 (F := Ideal) x0 x1 x2 x3 x4 x5 x6 (ix2 r c)
      = ∑ k : Fin 10, x0 (ix2 r k) * x6 (ix2 (Fin.castAdd 10 k) c)
        + ∑ k : Fin 10, val_main_v13 (F := Ideal) x0 x1 x2 x3 x4 x5 (ix2 r k) * x6 (ix2 (Fin.natAdd 10 k) c) := by
  rw [val_main_v15_apply]
  refine (Fin.sum_univ_add (M := EReal) (a := 10) (b := 10) _).trans ?_
  refine congrArg₂ (· + ·) (Finset.sum_congr rfl fun q _ => ?_) (Finset.sum_congr rfl fun q _ => ?_)
  · refine congrArg₂ (· * ·) ?_ (congrArg x6 (funext fun a => by match a with | ⟨0, _⟩ => rfl | ⟨1, _⟩ => rfl))
    unfold val_main_v14
    exact Cert.Proof.ConcatAt.pair_left _ _ _ _ r q rfl rfl
  · refine congrArg₂ (· * ·) ?_ (congrArg x6 (funext fun a => by match a with | ⟨0, _⟩ => rfl | ⟨1, _⟩ => rfl))
    unfold val_main_v14
    exact Cert.Proof.ConcatAt.pair_right _ _ _ _ r q rfl rfl

/-- The reference's result at `(r, c)`: the message-passing form of the encoder's row function, of row `r`. -/
theorem result_apply (r : Fin 4000000) (c : Fin 10) :
    val_main_v19 (F := Ideal) x0 x1 x2 x3 x4 x5 x6 x7 (ix2 r c)
      = encoderEdges (fun k => x0 (ix2 r k)) (fun j k => x1 (ix2 j k))
          (fun j d => x2 (ix2 (Fin.castAdd 10 j) d)) (fun j d => x2 (ix2 (Fin.natAdd 10 j) d)) (fun d => x3 (ix1 d))
          (fun k d => x4 (ix2 k d)) (fun d => x5 (ix1 d))
          (fun k d => x6 (ix2 (Fin.castAdd 10 k) d)) (fun k d => x6 (ix2 (Fin.natAdd 10 k) d)) (fun d => x7 (ix1 d)) floor0 c := by
  rw [val_main_v19_apply, val_main_v18_apply, last_product_apply, bias3_apply, val_main_call2_v0_apply,
    val_main_call2_cst_apply]
  simp only [layer2_apply, layer1_apply]
  rfl

/-- The reference's whole result is the message-passing form of the encoder's result of the arguments. -/
theorem result_eq : val_main_v19 (F := Ideal) x0 x1 x2 x3 x4 x5 x6 x7 = resultEdges x0 x1 x2 x3 x4 x5 x6 x7 := by
  funext i
  obtain ⟨r, c, rfl⟩ : ∃ (r : Fin 4000000) (c : Fin 10), i = ix2 r c := ⟨i 0, i 1, eq_ix2 i⟩
  exact result_apply x0 x1 x2 x3 x4 x5 x6 x7 r c

end Cert.Proof.RefRow

end
-- ==== Proof.Finite.lean ====
/-
  Finite inputs are real.

  The precondition says of every float argument that each entry's absolute value is below +∞, all the comparisons
  joined by `and` over each array and then over the eight arrays. An extended real whose absolute value `max x (−x)` is
  below +∞ is neither +∞ nor −∞, so it is a real number. Read here for the three arguments whose realness the algebra
  needs: the input, the adjacency and the first weight matrix.
-/
import proofs.«169801_j68358699483893_2_alg».proof.Pre_finite_inputs
import Idealize.ShloMosaic.Lib.ReduceAll
import Idealize.ShloMosaic.Lib.ValueIdx
import Idealize.ShloMosaic.PureOps.Ideal

noncomputable section

namespace Cert.Proof.Finite

open Cert.Pre_finite_inputs Idealize.ShloMosaic Idealize.ShloMosaic.ValueIdx

/-- The shape with no axes has one index. -/
instance : Subsingleton S_.Idx := ⟨fun _ _ => funext fun d => d.elim0⟩

/-- An extended real whose absolute value compares below the float +∞ is a real number. -/
theorem real_of_abs_lt (x : EReal)
    (h : Ideal.cmp .olt (max x (-x)) (Ideal.ofBits .f32 0x7F800000#32) = 1#1) : ∃ r : ℝ, x = r := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- A conjunction of two one-bit scalars that is 1 has both conjuncts 1. -/
theorem both (a b : IVec S_ 1) (h : andi a b ix0 = 1#1) : a ix0 = 1#1 ∧ b ix0 = 1#1 :=
  IntOp.andi_eq_one.mp h

/-- Under the precondition the input, the adjacency and the first weight matrix hold real numbers. -/
theorem real_of_pre [Cert.Pre_finite_inputs.Facts] (a0 : FVec Ideal S4000000x10 .f32) (a1 : FVec Ideal S10x10 .f32)
    (a2 : FVec Ideal S20x10 .f32) (a3 : FVec Ideal S10 .f32) (a4 : FVec Ideal S10x10 .f32) (a5 : FVec Ideal S10 .f32)
    (a6 : FVec Ideal S20x10 .f32) (a7 : FVec Ideal S10 .f32)
    (h : fn (F := Ideal) a0 a1 a2 a3 a4 a5 a6 a7 = fun _ => 1#1) :
    (∀ i, ∃ r : ℝ, a0 i = r) ∧ (∀ i, ∃ r : ℝ, a1 i = r) ∧ (∀ i, ∃ r : ℝ, a2 i = r) := by
  have h0 := congrFun h ix0
  dsimp only [fn, fn_part1, fn_part2] at h0
  obtain ⟨g6, -⟩ := both _ _ h0
  obtain ⟨g5, -⟩ := both _ _ g6
  obtain ⟨g4, -⟩ := both _ _ g5
  obtain ⟨g3, -⟩ := both _ _ g4
  obtain ⟨g2, -⟩ := both _ _ g3
  obtain ⟨g1, hW⟩ := both _ _ g2
  obtain ⟨hX, hA⟩ := both _ _ g1
  exact ⟨fun i => real_of_abs_lt (a0 i) (Host.reduce_andi_all _ _ _ _ ix0 hX i),
    fun i => real_of_abs_lt (a1 i) (Host.reduce_andi_all _ _ _ _ ix0 hA i),
    fun i => real_of_abs_lt (a2 i) (Host.reduce_andi_all _ _ _ _ ix0 hW i)⟩

end Cert.Proof.Finite

end
-- ==== Proof.lean ====
/-
  A three-layer message-passing encoder over four million rows: the kernel against its reference.

  The reference sends each row `x` of the input along the edges of a fixed graph both ways (`x·Aᵀ` and `x·A`), lays the two
  results side by side, and applies a dense layer with the rectifier; then a second dense layer; then a third over the
  row and the second layer's output side by side. The kernel's program first folds the adjacency into the first layer's
  weights, `E = Aᵀ·W₁[:10] + A·W₁[10:]`, cuts the third weight matrix in its two halves, and then runs a kernel that, for
  blocks of 8000 rows, computes `relu(x·E + b₁)`, the second layer, and `relu(x·W₃[:10] + h·W₃[10:] + b₃)`.

  At the extended reals both compute, at row `r` and column `c`, one function of row `r` of the input and of the weights.
  The third layer differs only in how a sum of twenty products is split in two sums of ten (associativity of addition).
  The first layer differs by associativity and distributivity of the matrix product, `(x·Aᵀ)·T + (x·A)·B = x·(Aᵀ·T + A·B)`,
  which on the extended reals needs the entries to be real: the precondition (every input finite) gives that for the
  input, the adjacency and the first weight matrix.

  The frames of the two kernels' programs are the generated ones; the reference's frame is its generated run with the
  result dropped; the idealized kernel is the kernel's own text read at the extended reals, so the preservation claim
  is trivial.
-/
import proofs.«169801_j68358699483893_2_alg».proof.Defs
import proofs.«169801_j68358699483893_2_alg».proof.Proof.Gen.Kernel
import proofs.«169801_j68358699483893_2_alg».proof.Proof.Gen.Kernel.Skeleton
import proofs.«169801_j68358699483893_2_alg».proof.Proof.Gen.Kernel.Launch
import proofs.«169801_j68358699483893_2_alg».proof.Proof.Gen.Kernel.Points
import proofs.«169801_j68358699483893_2_alg».proof.Proof.Gen.Kernel.Frame
import proofs.«169801_j68358699483893_2_alg».proof.Proof.Gen.KernelIdeal
import proofs.«169801_j68358699483893_2_alg».proof.Proof.Gen.KernelIdeal.Skeleton
import proofs.«169801_j68358699483893_2_alg».proof.Proof.Gen.KernelIdeal.Launch
import proofs.«169801_j68358699483893_2_alg».proof.Proof.Gen.KernelIdeal.Points
import proofs.«169801_j68358699483893_2_alg».proof.Proof.Gen.KernelIdeal.Frame
import proofs.«169801_j68358699483893_2_alg».proof.Proof.Gen.ReferenceIdeal
import proofs.«169801_j68358699483893_2_alg».proof.Proof.Gen.KernelIdeal.Value
import proofs.«169801_j68358699483893_2_alg».proof.Proof.Gen.ReferenceIdeal.Run
import proofs.«169801_j68358699483893_2_alg».proof.Proof.Gen.ReferenceIdeal.Read
import proofs.«169801_j68358699483893_2_alg».proof.Proof.Gen.Pre_finite_inputs
import proofs.«169801_j68358699483893_2_alg».proof.Proof.KernelValue
import proofs.«169801_j68358699483893_2_alg».proof.Proof.RefRow
import proofs.«169801_j68358699483893_2_alg».proof.Proof.Finite
import Idealize.ShloMosaic.Adequacy
import Idealize.ShloMosaic.Init

noncomputable section

namespace Cert.Proof

open Idealize.ShloMosaic Idealize.SL.Sem Idealize.ShloMosaic.TcCoe

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the encoder's result of the arguments (the blocks glued), the reference's at its
    message-passing form of the same arguments; under the precondition the input, the adjacency and the first weight
    matrix are real, and the two forms are one function. -/
theorem algebraic : Cert.algebraic_KernelIdeal_ReferenceIdeal := by
  intro m ρ m' ρ' hpre hagree
  refine ⟨fun c => KernelValue.resultOf m c, KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hA, hW⟩ := Finite.real_of_pre _ _ _ _ _ _ _ _ (hpre c)
  rw [Cert.ReferenceIdeal.Read.val_main_v19_eq, RefRow.result_eq, (hagree c).1, (hagree c).2.1, (hagree c).2.2.1,
    (hagree c).2.2.2.1, (hagree c).2.2.2.2.1, (hagree c).2.2.2.2.2.1, (hagree c).2.2.2.2.2.2.1, (hagree c).2.2.2.2.2.2.2]
  exact Spec.resultEdges_eq hX hA hW _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
